-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_v18) = v6 c
          ∧ r.2.mem ((c.tc : Thread Cert.ReferenceIdeal.nD Cert.ReferenceIdeal.τ).loc Cert.ReferenceIdeal.main_v20) = v7 c
          ∧ r.2.mem ((c.tc : Thread Cert.ReferenceIdeal.nD Cert.ReferenceIdeal.τ).loc Cert.ReferenceIdeal.main_v22) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S9x128x128 : Shape := ⟨3, ![9, 128, 128]⟩
abbrev S9x128 : Shape := ⟨2, ![9, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S9x128x128 : S_.BroadcastsInDim S9x128x128 (![] : Fin 0 → Fin S9x128x128.rank)
  reducesTo_S9x128x128_S_d0_1_2 : S9x128x128.ReducesTo [0, 1, 2] S_
  bcast_S_S9x128 : S_.BroadcastsInDim S9x128 (![] : Fin 0 → Fin S9x128.rank)
  reducesTo_S9x128_S_d0_1 : S9x128.ReducesTo [0, 1] S_

variable [Facts]

def fn {F : FTy → Type} [FloatOps F] (main_arg0 : FVec F S100000x128 .f32) (main_arg1 : FVec F S9x128x128 .f32) (main_arg2 : FVec F S9x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S9x128x128 .f32 := Host.absf main_arg1
  let main_cst_0 : FVec F S_ .f32 := constant S_ .f32 0x7F800000#32
  let main_v5 : FVec F S9x128x128 .f32 := broadcastInDim S9x128x128 ![] bcast_S_S9x128x128 main_cst_0
  let main_v6 : IVec S9x128x128 1 := cmpf .olt main_v4 main_v5
  let main_c_1 : IVec S_ 1 := constantI S_ 1 1#1
  let main_v7 : IVec S_ 1 := (fun x v => Host.reduce IntOp.andi x v reducesTo_S9x128x128_S_d0_1_2 h_S_) main_v6 main_c_1
  let main_v8 : IVec S_ 1 := andi main_v3 main_v7
  let main_v9 : FVec F S9x128 .f32 := Host.absf main_arg2
  let main_cst_2 : FVec F S_ .f32 := constant S_ .f32 0x7F800000#32
  let main_v10 : FVec F S9x128 .f32 := broadcastInDim S9x128 ![] bcast_S_S9x128 main_cst_2
  let main_v11 : IVec S9x128 1 := cmpf .olt main_v9 main_v10
  let main_c_3 : IVec S_ 1 := constantI S_ 1 1#1
  let main_v12 : IVec S_ 1 := (fun x v => Host.reduce IntOp.andi x v reducesTo_S9x128_S_d0_1 h_S_) main_v11 main_c_3
  let main_v13 : IVec S_ 1 := andi main_v8 main_v12
  main_v13
-- ==== Kernel.lean ====
abbrev S100000x128 : Shape := ⟨2, ![100000, 128]⟩
abbrev S9x128x128 : Shape := ⟨3, ![9, 128, 128]⟩
abbrev S9x128 : Shape := ⟨2, ![9, 128]⟩
abbrev S4000x128 : Shape := ⟨2, ![4000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S9x128x128, .f32⟩
  | .hbm, ⟨2, _⟩ => ⟨S9x128, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S9x128x128, .f32⟩
  | .local _ .vmem, ⟨3, _⟩ => ⟨S9x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S4000x128_S4000x128_0_0 : ∀ a, (![0, 0] : Fin 2 → Nat) a + S4000x128.size a ≤ S4000x128.size a
  h_S4000x128 : 0 < S4000x128.numel
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S9x128_S1x128_0_0 : ∀ a, (![0, 0] : Fin 2 → Nat) a + S1x128.size a ≤ S9x128.size a
  h_S1x128 : 0 < S1x128.numel
  shapeCasts_S1x128_S128 : S1x128.ShapeCasts S128
  shapeCasts_S128_S1x128 : S128.ShapeCasts S1x128
  broadcasts_S1x128_S4000x128 : S1x128.Broadcasts S4000x128
  inb_S9x128x128_S1x128x128_1_0_0 : ∀ a, (![1, 0, 0] : Fin 3 → Nat) a + S1x128x128.size a ≤ S9x128x128.size a
  inb_S9x128_S1x128_1_0 : ∀ a, (![1, 0] : Fin 2 → Nat) a + S1x128.size a ≤ S9x128.size a
  inb_S9x128x128_S1x128x128_2_0_0 : ∀ a, (![2, 0, 0] : Fin 3 → Nat) a + S1x128x128.size a ≤ S9x128x128.size a
  inb_S9x128_S1x128_2_0 : ∀ a, (![2, 0] : Fin 2 → Nat) a + S1x128.size a ≤ S9x128.size a
  inb_S9x128x128_S1x128x128_3_0_0 : ∀ a, (![3, 0, 0] : Fin 3 → Nat) a + S1x128x128.size a ≤ S9x128x128.size a
  inb_S9x128_S1x128_3_0 : ∀ a, (![3, 0] : Fin 2 → Nat) a + S1x128.size a ≤ S9x128.size a
  inb_S9x128x128_S1x128x128_4_0_0 : ∀ a, (![4, 0, 0] : Fin 3 → Nat) a + S1x128x128.size a ≤ S9x128x128.size a
  inb_S9x128_S1x128_4_0 : ∀ a, (![4, 0] : Fin 2 → Nat) a + S1x128.size a ≤ S9x128.size a
  inb_S9x128x128_S1x128x128_5_0_0 : ∀ a, (![5, 0, 0] : Fin 3 → Nat) a + S1x128x128.size a ≤ S9x128x128.size a
  inb_S9x128_S1x128_5_0 : ∀ a, (![5, 0] : Fin 2 → Nat) a + S1x128.size a ≤ S9x128.size a
  inb_S9x128x128_S1x128x128_6_0_0 : ∀ a, (![6, 0, 0] : Fin 3 → Nat) a + S1x128x128.size a ≤ S9x128x128.size a
  inb_S9x128_S1x128_6_0 : ∀ a, (![6, 0] : Fin 2 → Nat) a + S1x128.size a ≤ S9x128.size a
  inb_S9x128x128_S1x128x128_7_0_0 : ∀ a, (![7, 0, 0] : Fin 3 → Nat) a + S1x128x128.size a ≤ S9x128x128.size a
  inb_S9x128_S1x128_7_0 : ∀ a, (![7, 0] : Fin 2 → Nat) a + S1x128.size a ≤ S9x128.size a
  inb_S9x128x128_S1x128x128_8_0_0 : ∀ a, (![8, 0, 0] : Fin 3 → Nat) a + S1x128x128.size a ≤ S9x128x128.size a
  inb_S9x128_S1x128_8_0 : ∀ a, (![8, 0] : Fin 2 → Nat) a + S1x128.size a ≤ S9x128.size a
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x128.size a ≤ S9x128x128.size a
  hwx0_1 : ∀ i : grid0.Coords, EltTy.bits .f32 = 32 ∨ (Rect.block (s := S9x128x128) S9x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x128.size a ≤ S9x128.size a
  hwx0_2 : ∀ i : grid0.Coords, EltTy.bits .f32 = 32 ∨ (Rect.block (s := S9x128) S9x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)

variable [Facts₀]

def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S9x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_6) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_7) S4000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_8) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S9x128x128 : Shape := ⟨3, ![9, 128, 128]⟩
abbrev S9x128 : Shape := ⟨2, ![9, 128]⟩
abbrev S9x128x100000 : Shape := ⟨3, ![9, 128, 100000]⟩
abbrev S9x100000x128 : Shape := ⟨3, ![9, 100000, 128]⟩
abbrev S9x1x128 : Shape := ⟨3, ![9, 1, 128]⟩
abbrev S1x100000x128 : Shape := ⟨3, ![1, 100000, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S9x128x128, .f32⟩
  | .hbm, ⟨2, _⟩ => ⟨S9x128, .f32⟩
  | .hbm, ⟨3, _⟩ => ⟨S9x128x100000, .f32⟩
  | .hbm, ⟨4, _⟩ => ⟨S9x100000x128, .f32⟩
  | .hbm, ⟨5, _⟩ => ⟨S9x1x128, .f32⟩
  | .hbm, ⟨6, _⟩ => ⟨S9x100000x128, .f32⟩
  | .hbm, ⟨7, _⟩ => ⟨S9x100000x128, .f32⟩
  | .hbm, ⟨8, _⟩ => ⟨S1x100000x128, .f32⟩
  | .hbm, ⟨9, _⟩ => ⟨S100000x128, .f32⟩
  | .hbm, ⟨10, _⟩ => ⟨S1x100000x128, .f32⟩
  | .hbm, ⟨11, _⟩ => ⟨S100000x128, .f32⟩
  | .hbm, ⟨12, _⟩ => ⟨S1x100000x128, .f32⟩
  | .hbm, ⟨13, _⟩ => ⟨S100000x128, .f32⟩
  | .hbm, ⟨14, _⟩ => ⟨S1x100000x128, .f32⟩
  | .hbm, ⟨15, _⟩ => ⟨S100000x128, .f32⟩
  | .hbm, ⟨16, _⟩ => ⟨S1x100000x128, .f32⟩
  | .hbm, ⟨17, _⟩ => ⟨S100000x128, .f32⟩
  | .hbm, ⟨18, _⟩ => ⟨S1x100000x128, .f32⟩
  | .hbm, ⟨19, _⟩ => ⟨S100000x128, .f32⟩
  | .hbm, ⟨20, _⟩ => ⟨S1x100000x128, .f32⟩
  | .hbm, ⟨21, _⟩ => ⟨S100000x128, .f32⟩
  | .hbm, ⟨22, _⟩ => ⟨S1x100000x128, .f32⟩
  | .hbm, ⟨23, _⟩ => ⟨S100000x128, .f32⟩
  | .hbm, ⟨24, _⟩ => ⟨S1x100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]

class Facts₀ : Prop where
  transposes_S9x128x100000_S9x100000x128_0_2_1 : S9x128x100000.Transposes [0, 2, 1] S9x100000x128
  bcast_S9x128_S9x1x128_0_2 : S9x128.BroadcastsInDim S9x1x128 (![0, 2] : Fin 2 → Fin S9x1x128.rank)
  bcast_S9x1x128_S9x100000x128_0_1_2 : S9x1x128.BroadcastsInDim S9x100000x128 (![0, 1, 2] : Fin 3 → Fin S9x100000x128.rank)
  slices_S9x100000x128_S1x100000x128_0_0_0 : S9x100000x128.Slices ![0, 0, 0] S1x100000x128
  shapeCasts_S1x100000x128_S100000x128 : S1x100000x128.ShapeCasts S100000x128
  slices_S9x100000x128_S1x100000x128_1_0_0 : S9x100000x128.Slices ![1, 0, 0] S1x100000x128
  slices_S9x100000x128_S1x100000x128_2_0_0 : S9x100000x128.Slices ![2, 0, 0] S1x100000x128
  slices_S9x100000x128_S1x100000x128_3_0_0 : S9x100000x128.Slices ![3, 0, 0] S1x100000x128
  slices_S9x100000x128_S1x100000x128_4_0_0 : S9x100000x128.Slices ![4, 0, 0] S1x100000x128
  slices_S9x100000x128_S1x100000x128_5_0_0 : S9x100000x128.Slices ![5, 0, 0] S1x100000x128
  slices_S9x100000x128_S1x100000x128_6_0_0 : S9x100000x128.Slices ![6, 0, 0] S1x100000x128
  slices_S9x100000x128_S1x100000x128_7_0_0 : S9x100000x128.Slices ![7, 0, 0] S1x100000x128
  slices_S9x100000x128_S1x100000x128_8_0_0 : S9x100000x128.Slices ![8, 0, 0] S1x100000x128
  dot_S9x128x128_S100000x128_S9x128x100000_2_1_01_0_n_n_wf : DotDims.WF S9x128x128 S100000x128 S9x128x100000 [2] [1] [0, 1] [0] [] []

variable [Facts₀]

def dot_S9x128x128_S100000x128_S9x128x100000_2_1_01_0_n_n : DotDims S9x128x128 S100000x128 S9x128x100000 where
  lhsContracting := [2]
  rhsContracting := [1]
  lhsNonContracting := [0, 1]
  rhsNonContracting := [0]
  lhsBatch := []
  rhsBatch := []
  wf := dot_S9x128x128_S100000x128_S9x128x100000_2_1_01_0_n_n_wf

class Facts : Prop extends Facts₀ where

variable [Facts]
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.Body.lean ====
/-
  What one grid point computes for one direction.

  At a grid point the kernel holds a block `x` of 4000 rows of the input, one [1, 128, 128] slab `w` of the weights and
  one [1, 128] row `b` of the bias. For each direction it multiplies `x` by the slab — contracting the input-channel
  axis of both, into a zero accumulator — and adds the bias row to every row of the product. Entry `(p, q)` of the
  result is therefore  ∑ j, x[p, j] · w[0, q, j]  +  b[0, q].
-/
import proofs.«138845_g40656160424518_cont_8to1_b_389_5_alg».proof.Proof.Gen.KernelIdeal.Skeleton
import proofs.«138845_g40656160424518_cont_8to1_b_389_5_alg».proof.Proof.LibContract
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The product of a block of rows with one weight slab, plus the bias row on every row: the common form of the
    values the body stores. -/
def slab (x : FVec Ideal S4000x128 .f32) (w : FVec Ideal S1x128x128 .f32) (b : FVec Ideal S1x128 .f32) : FVec Ideal S4000x128 .f32 :=
  addf (matmul dot_S4000x128_S128x128_S4000x128_1_1_0_0_n_n none x (shapeCast S128x128 w shapeCasts_S1x128x128_S128x128) (constant S4000x128 .f32 0x00000000#32))
    (broadcastTo S4000x128 (shapeCast S1x128 (shapeCast S128 b shapeCasts_S1x128_S128) shapeCasts_S128_S1x128) broadcasts_S1x128_S4000x128)

/-- Each of the nine stored values is that form of its three loads. -/
theorem pay4_eq (x : FVec Ideal S4000x128 .f32) (w : FVec Ideal S1x128x128 .f32) (b : FVec Ideal S1x128 .f32) : k0_pay4 x w b = slab x w b := rfl
theorem pay5_eq (x : FVec Ideal S4000x128 .f32) (w : FVec Ideal S1x128x128 .f32) (b : FVec Ideal S1x128 .f32) : k0_pay5 x w b = slab x w b := rfl
theorem pay6_eq (x : FVec Ideal S4000x128 .f32) (w : FVec Ideal S1x128x128 .f32) (b : FVec Ideal S1x128 .f32) : k0_pay6 x w b = slab x w b := rfl
theorem pay7_eq (x : FVec Ideal S4000x128 .f32) (w : FVec Ideal S1x128x128 .f32) (b : FVec Ideal S1x128 .f32) : k0_pay7 x w b = slab x w b := rfl
theorem pay8_eq (x : FVec Ideal S4000x128 .f32) (w : FVec Ideal S1x128x128 .f32) (b : FVec Ideal S1x128 .f32) : k0_pay8 x w b = slab x w b := rfl
theorem pay9_eq (x : FVec Ideal S4000x128 .f32) (w : FVec Ideal S1x128x128 .f32) (b : FVec Ideal S1x128 .f32) : k0_pay9 x w b = slab x w b := rfl
theorem pay1_eq (x : FVec Ideal S4000x128 .f32) (w : FVec Ideal S1x128x128 .f32) (b : FVec Ideal S1x128 .f32) : k0_pay1 (k0_pay10 x w) b = slab x w b := rfl
theorem pay2_eq (x : FVec Ideal S4000x128 .f32) (w : FVec Ideal S1x128x128 .f32) (b : FVec Ideal S1x128 .f32) : k0_pay2 x w b = slab x w b := rfl
theorem pay3_eq (x : FVec Ideal S4000x128 .f32) (w : FVec Ideal S1x128x128 .f32) (b : FVec Ideal S1x128 .f32) : k0_pay3 x w b = slab x w b := rfl

/-- Where the product reads its operands: at output position `i` and contraction index `κ`, the left operand at
    `(i 0, κ)` and the right operand at `(i 1, κ)` — the second axis of BOTH operands is the contracted one. -/
theorem lhs_row (i : S4000x128.Idx) (κ : dot_S4000x128_S128x128_S4000x128_1_1_0_0_n_n.contr.Idx) : (dot_S4000x128_S128x128_S4000x128_1_1_0_0_n_n.lhsIdx i κ 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
theorem lhs_col (i : S4000x128.Idx) (κ : dot_S4000x128_S128x128_S4000x128_1_1_0_0_n_n.contr.Idx) : (dot_S4000x128_S128x128_S4000x128_1_1_0_0_n_n.lhsIdx i κ 1).val = (κ ⟨0, by decide⟩).val :=
  dot_S4000x128_S128x128_S4000x128_1_1_0_0_n_n.lhsIdx_val_of_single rfl i κ
theorem rhs_row (i : S4000x128.Idx) (κ : dot_S4000x128_S128x128_S4000x128_1_1_0_0_n_n.contr.Idx) : (dot_S4000x128_S128x128_S4000x128_1_1_0_0_n_n.rhsIdx i κ 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
theorem rhs_col (i : S4000x128.Idx) (κ : dot_S4000x128_S128x128_S4000x128_1_1_0_0_n_n.contr.Idx) : (dot_S4000x128_S128x128_S4000x128_1_1_0_0_n_n.rhsIdx i κ 1).val = (κ ⟨0, by decide⟩).val :=
  dot_S4000x128_S128x128_S4000x128_1_1_0_0_n_n.rhsIdx_val_of_single rfl i κ

/-- The left operand of the product at output position `(p, q)` and contracted coordinate `j` is `(p, j)`. -/
theorem lhs_pos (p : Fin 4000) (q : Fin 128) (j : Fin 128) :
    dot_S4000x128_S128x128_S4000x128_1_1_0_0_n_n.lhsIdx (ix2 p q) ((contrEquiv1 dot_S4000x128_S128x128_S4000x128_1_1_0_0_n_n 128 rfl rfl).symm j) = ix2 p j := by
  have hj := contrEquiv1_symm_val dot_S4000x128_S128x128_S4000x128_1_1_0_0_n_n 128 rfl rfl j
  exact funext fun a => Fin.ext (by
    match a with
    | ⟨0, _⟩ => exact lhs_row _ _
    | ⟨1, _⟩ => exact (lhs_col _ _).trans hj)

/-- The right operand there is `(q, j)`. -/
theorem rhs_pos (p : Fin 4000) (q : Fin 128) (j : Fin 128) :
    dot_S4000x128_S128x128_S4000x128_1_1_0_0_n_n.rhsIdx (ix2 p q) ((contrEquiv1 dot_S4000x128_S128x128_S4000x128_1_1_0_0_n_n 128 rfl rfl).symm j) = ix2 q j := by
  have hj := contrEquiv1_symm_val dot_S4000x128_S128x128_S4000x128_1_1_0_0_n_n 128 rfl rfl j
  exact funext fun a => Fin.ext (by
    match a with
    | ⟨0, _⟩ => exact rhs_row _ _
    | ⟨1, _⟩ => exact (rhs_col _ _).trans hj)

/-- ENTRY `(p, q)` of the stored value: row `p` of the block against row `q` of the slab, plus the bias at `q`. -/
theorem slab_entry (x : FVec Ideal S4000x128 .f32) (w : FVec Ideal S1x128x128 .f32) (b : FVec Ideal S1x128 .f32) (p : Fin 4000) (q : Fin 128) :
    slab x w b (ix2 p q) = (∑ j : Fin 128, x (ix2 p j) * w (ix3 (0 : Fin 1) q j)) + b (ix2 (0 : Fin 1) q) := by
  unfold slab
  show FloatOps.matmul dot_S4000x128_S128x128_S4000x128_1_1_0_0_n_n none x (shapeCast S128x128 w shapeCasts_S1x128x128_S128x128) (constant (F := Ideal) S4000x128 .f32 0x00000000#32) (ix2 p q)
      + broadcastTo S4000x128 (shapeCast S1x128 (shapeCast S128 b shapeCasts_S1x128_S128) shapeCasts_S128_S1x128) broadcasts_S1x128_S4000x128 (ix2 p q) = _
  have hm := Cert.LibContract.matmul_zero_entry dot_S4000x128_S128x128_S4000x128_1_1_0_0_n_n none 128 rfl rfl x
    (shapeCast S128x128 w shapeCasts_S1x128x128_S128x128) (ix2 p q) (fun j => ix2 p j) (fun j => ix2 q j) (lhs_pos p q) (rhs_pos p q)
  have hb : broadcastTo S4000x128 (shapeCast S1x128 (shapeCast S128 b shapeCasts_S1x128_S128) shapeCasts_S128_S1x128) broadcasts_S1x128_S4000x128 (ix2 p q) = b (ix2 (0 : Fin 1) q) :=
    (broadcastTo_1b_ab_apply _ broadcasts_S1x128_S4000x128 p q).trans
      ((shapeCast_a_1a_apply _ shapeCasts_S128_S1x128 (0 : Fin 1) q).trans (shapeCast_1a_a_apply b shapeCasts_S1x128_S128 q))
  rw [hm, hb]
  refine congrArg (· + b (ix2 (0 : Fin 1) q)) (Finset.sum_congr rfl fun j _ => ?_)
  exact congrArg (x (ix2 p j) * ·) (shapeCast_1ab_ab_apply w shapeCasts_S1x128x128_S128x128 q j)

end Cert.KernelIdeal.Body

end
-- ==== Proof.Reads.lean ====
/-
  The three input blocks of a grid point, read as entries of the whole argument arrays.

  The grid has 25 points. At point `t` the first window holds rows `4000·t … 4000·t + 3999` of the [100000, 128]
  input; the second and third windows hold the whole weight array [9, 128, 128] and the whole bias array [9, 128] at
  every point. The body then loads, for direction `k`, slab `k` of the weights and row `k` of the bias. So every
  value the body loads is one entry of an argument array, named here by its coordinates.
-/
import proofs.«138845_g40656160424518_cont_8to1_b_389_5_alg».proof.Proof.Gen.KernelIdeal.Frame
import Idealize.ShloMosaic.Lib.ValueIdx
import Idealize.ShloMosaic.Lib.Pipeline.Value

noncomputable section

namespace Cert.KernelIdeal.Reads

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The input windows' block indices over the grid: the rows' window moves one block of rows per point, the weights' and
    the bias' windows stay at block zero. -/
theorem in_index : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- Entry `(p, j)` of the rows' block at point `t` is entry `(4000·t + p, j)` of the input. -/
theorem rows_read (c : Dev nD) (t : Fin cfg0.N) (p : Fin 4000) (j : Fin 128) (n : Fin 100000) (hn : n.val = t.val * 4000 + p.val) :
    (iblk m c 0 t : FVec Ideal S4000x128 .f32) (ix2 p j) = (V m c main_arg0 : FVec Ideal S100000x128 .f32) (ix2 n j) := by
  obtain ⟨e0, e1, -⟩ := in_index t
  unfold iblk
  rw [View.read_apply]
  show V m c main_arg0 _ = V m c main_arg0 _
  refine congrArg (V m c main_arg0) (funext fun a => Fin.ext ?_)
  match a with
  | ⟨0, _⟩ => show win0_0.index t (0 : Fin 2) * 4000 + 1 * p.val = n.val; omega
  | ⟨1, _⟩ => show win0_0.index t (1 : Fin 2) * 128 + 1 * j.val = j.val; omega

/-- Entry `(0, q, j)` of the slab the body loads for direction `k` is entry `(k, q, j)` of the weights. -/
theorem weights_read (c : Dev nD) (t : Fin cfg0.N) (k : Fin 9) (inb) (q j : Fin 128) :
    View.ld (iblk m c 1 t : FVec Ideal S9x128x128 .f32) (Rect.unit (s := S9x128x128) ![k.val, 0, 0] S1x128x128.size inb) (ix3 (0 : Fin 1) q j)
      = (V m c main_arg1 : FVec Ideal S9x128x128 .f32) (ix3 k q j) := by
  obtain ⟨-, -, e0, e1, e2, -⟩ := in_index t
  show (iblk m c 1 t : FVec Ideal S9x128x128 .f32) ((Rect.unit (s := S9x128x128) ![k.val, 0, 0] S1x128x128.size inb).idx (ix3 (0 : Fin 1) q j)) = _
  unfold iblk
  rw [View.read_apply]
  show V m c main_arg1 _ = V m c main_arg1 _
  refine congrArg (V m c main_arg1) (funext fun a => Fin.ext ?_)
  match a with
  | ⟨0, _⟩ => show win0_1.index t (0 : Fin 3) * 9 + 1 * (k.val + 1 * 0) = k.val; omega
  | ⟨1, _⟩ => show win0_1.index t (1 : Fin 3) * 128 + 1 * (0 + 1 * q.val) = q.val; omega
  | ⟨2, _⟩ => show win0_1.index t (2 : Fin 3) * 128 + 1 * (0 + 1 * j.val) = j.val; omega

/-- Entry `(0, q)` of the bias row the body loads for direction `k` is entry `(k, q)` of the bias. -/
theorem bias_read (c : Dev nD) (t : Fin cfg0.N) (k : Fin 9) (inb) (q : Fin 128) :
    View.ld (iblk m c 2 t : FVec Ideal S9x128 .f32) (Rect.unit (s := S9x128) ![k.val, 0] S1x128.size inb) (ix2 (0 : Fin 1) q)
      = (V m c main_arg2 : FVec Ideal S9x128 .f32) (ix2 k q) := by
  obtain ⟨-, -, -, -, -, e0, e1⟩ := in_index t
  show (iblk m c 2 t : FVec Ideal S9x128 .f32) ((Rect.unit (s := S9x128) ![k.val, 0] S1x128.size inb).idx (ix2 (0 : Fin 1) q)) = _
  unfold iblk
  rw [View.read_apply]
  show V m c main_arg2 _ = V m c main_arg2 _
  refine congrArg (V m c main_arg2) (funext fun a => Fin.ext ?_)
  match a with
  | ⟨0, _⟩ => show win0_2.index t (0 : Fin 2) * 9 + 1 * (k.val + 1 * 0) = k.val; omega
  | ⟨1, _⟩ => show win0_2.index t (1 : Fin 2) * 128 + 1 * (0 + 1 * q.val) = q.val; omega

end Cert.KernelIdeal.Reads

end
-- ==== Proof.Spec.lean ====
/-
  The map this certificate is about: nine affine maps of one matrix.

  `X` is a [100000, 128] matrix of rows, `W` nine [128, 128] matrices (direction, output channel, input channel)
  and `B` nine bias rows [9, 128]. Direction `k` sends row `n` of `X` to the row whose entry `o` is
      ∑ j, X[n, j] · W[k, o, j]  +  B[k, o],
  that is `X · W[k]ᵀ + B[k]`. Everything is read on the extended reals, where `+` and `·` are commutative and
  finite sums do not depend on their order; no other law is used anywhere in this certificate, so finiteness of the
  inputs is never needed.
-/
import Idealize.ShloMosaic.PureOps.Ideal
import Idealize.ShloMosaic.Lib.ValueIdx

noncomputable section

namespace Cert.Directional

open Idealize.ShloMosaic Idealize.ShloMosaic.ValueIdx

/-- Entry `(n, o)` of direction `k`'s result: row `n` of `X` against row `o` of `W[k]`, plus `B[k, o]`. -/
def entry (k : Fin 9) (X : FVec Ideal ⟨2, ![100000, 128]⟩ .f32) (W : FVec Ideal ⟨3, ![9, 128, 128]⟩ .f32)
    (B : FVec Ideal ⟨2, ![9, 128]⟩ .f32) (n : Fin 100000) (o : Fin 128) : EReal :=
  (∑ j : Fin 128, X (ix2 n j) * W (ix3 k o j)) + B (ix2 k o)

/-- Direction `k`'s result as a whole [100000, 128] array. -/
def affine (k : Fin 9) (X : FVec Ideal ⟨2, ![100000, 128]⟩ .f32) (W : FVec Ideal ⟨3, ![9, 128, 128]⟩ .f32)
    (B : FVec Ideal ⟨2, ![9, 128]⟩ .f32) : FVec Ideal ⟨2, ![100000, 128]⟩ .f32 :=
  fun i => entry k X W B (i 0) (i 1)

theorem affine_ix2 (k : Fin 9) (X : FVec Ideal ⟨2, ![100000, 128]⟩ .f32) (W : FVec Ideal ⟨3, ![9, 128, 128]⟩ .f32)
    (B : FVec Ideal ⟨2, ![9, 128]⟩ .f32) (n : Fin 100000) (o : Fin 128) :
    affine k X W B (ix2 n o) = entry k X W B n o := rfl

end Cert.Directional

end
-- ==== Proof.Stored.lean ====
/-
  What a grid point stores for one direction, as an entry of that direction's affine map.

  Grid point `t` holds rows `4000·t … 4000·t + 3999` of the input and the whole weight and bias arrays. For direction
  `k` it stores the product of its block of rows with weight slab `k` (contracting the input-channel axis), plus bias
  row `k`. Entry `(p, q)` of what it stores is
      ∑ j, X[4000·t + p, j] · W[k, q, j]  +  B[k, q],
  which is entry `(4000·t + p, q)` of direction `k`'s affine map of the whole arguments.
-/
import proofs.«138845_g40656160424518_cont_8to1_b_389_5_alg».proof.Proof.Gen.KernelIdeal.Frame
import proofs.«138845_g40656160424518_cont_8to1_b_389_5_alg».proof.Proof.Body
import proofs.«138845_g40656160424518_cont_8to1_b_389_5_alg».proof.Proof.Reads
import proofs.«138845_g40656160424518_cont_8to1_b_389_5_alg».proof.Proof.Spec

noncomputable section

namespace Cert.KernelIdeal.Stored

open Cert.KernelIdeal Cert.KernelIdeal.Gen Cert.KernelIdeal.Body Cert.KernelIdeal.Reads Idealize.ShloMosaic Idealize.ShloMosaic.TcCoe Idealize.SL.Sem Idealize.ShloMosaic.ValueIdx

variable (m : (ℓ : Loc nD τ sig) → Buf (Elt Ideal) ℓ)

theorem hz2 : (![0, 0] : Fin 2 → Nat) = fun _ => 0 := funext fun a => by fin_cases a <;> rfl

/-- Direction `k`'s affine map of the argument arrays as the region finds them. -/
abbrev target (c : Dev nD) (k : Fin 9) : FVec Ideal S100000x128 .f32 :=
  Cert.Directional.affine k (V m c main_arg0) (V m c main_arg1) (V m c main_arg2)

/-- THE BLOCK A POINT STORES for direction `k`, at `(p, q)`, is direction `k`'s entry at row `4000·t + p`: the body's
    three loads are entries of the argument arrays, and the stored value's entry is the specification's sum of them. -/
theorem stored_entry (c : Dev nD) (t : Fin cfg0.N) (k : Fin 9) (inbW) (inbB) (p : Fin 4000) (q : Fin 128) (n : Fin 100000)
    (hn : n.val = t.val * 4000 + p.val) :
    slab (iblk m c 0 t) (View.ld (iblk m c 1 t : FVec Ideal S9x128x128 .f32) (Rect.unit (s := S9x128x128) ![k.val, 0, 0] S1x128x128.size inbW))
        (View.ld (iblk m c 2 t : FVec Ideal S9x128 .f32) (Rect.unit (s := S9x128) ![k.val, 0] S1x128.size inbB)) (ix2 p q)
      = Cert.Directional.entry k (V m c main_arg0) (V m c main_arg1) (V m c main_arg2) n q := by
  refine (slab_entry _ _ _ p q).trans ?_
  unfold Cert.Directional.entry
  rw [bias_read m c t k inbB q]
  refine congrArg (· + (V m c main_arg2 : FVec Ideal S9x128 .f32) (ix2 k q)) (Finset.sum_congr rfl fun j _ => ?_)
  rw [rows_read m c t p j n hn, weights_read m c t k inbW q j]

end Cert.KernelIdeal.Stored

end
-- ==== Proof.ResultsA.lean ====
/-
  Results 0, 1 and 2 of the kernel as whole arrays.

  For each result: grid point `t` writes back the block of rows `4000·t … 4000·t + 3999`, whose entries are the
  direction's affine map at those rows; the 25 blocks cover the 100000 rows (row `r` lies in the block of point
  `r / 4000`); so after the run the array is the direction's affine map of the arguments.
-/
import proofs.«138845_g40656160424518_cont_8to1_b_389_5_alg».proof.Proof.Gen.KernelIdeal.Value
import proofs.«138845_g40656160424518_cont_8to1_b_389_5_alg».proof.Proof.Stored

noncomputable section

namespace Cert.KernelIdeal.ResultsA

open Cert.KernelIdeal Cert.KernelIdeal.Gen Cert.KernelIdeal.Body Cert.KernelIdeal.Stored Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Result 0 (output window 3) -/

/-- Its window moves one block of rows per point. -/
theorem index3 : ∀ t : Fin cfg0.N, win0_3.index t (0 : Fin 2) = t.val ∧ win0_3.index t (1 : Fin 2) = 0 :=
  (by decide +kernel : ∀ t : Fin grid0.N, _)

/-- What point `t` writes back is block `t` of direction 0's affine map. -/
theorem flushed3_eq (c : Dev nD) (t : Fin cfg0.N) :
    (dats m 0 c).flushed 3 t = ((cfg0.win 3).blk t).view.read (Elt Ideal) (target m c 0) := by
  obtain ⟨e0, e1⟩ := index3 t
  have hN : cfg0.N = 25 := N_0
  rw [Value.flushed3]
  unfold out0_3
  rw [View.canon_unit_zero hz2]
  simp only [View.ld_unit_zero (S := S4000x128) hz2]
  rw [pay4_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 3).blk t).view.emb (ix2 p q) = (ix2 (⟨t.val * 4000 + p.val, by omega⟩ : Fin 100000) q : S100000x128.Idx) := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  show slab (iblk m c 0 t) (View.ld (iblk m c 1 t) r0_1) (View.ld (iblk m c 2 t) r0_2) (ix2 p q) = target m c 0 (((cfg0.win 3).blk t).view.emb (ix2 p q))
  rw [hpos]
  exact stored_entry m c t 0 _ _ p q _ rfl

/-- An index is in point `t`'s block iff each coordinate is in the block's range on its axis. -/
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v0_0).slice (win0_3.rect t)).set ↔ _
  rw [View.set_slice_whole, Rect.mem_set_unit]
  exact Iff.rfl

/-- The blocks of 4000 rows cover the array: row `r` is in the block of point `r / 4000`. -/
theorem cover3 (i : S100000x128.Idx) : ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index3 ⟨(i 0).val / 4000, ht⟩
  refine ⟨⟨(i 0).val / 4000, ht⟩, flush0_3 _, ?_⟩
  rw [mem_blk3]
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_3.index ⟨(i 0).val / 4000, ht⟩ (1 : Fin 2) * 128 ≤ (i 1).val ∧ (i 1).val < win0_3.index ⟨(i 0).val / 4000, ht⟩ (1 : Fin 2) * 128 + 128; rw [e1]; omega

/-- So result 0 ends holding direction 0's affine map of the arguments. -/
theorem final3 (c : Dev nD) : (dats m 0 c).arrAt 3 cfg0.N = target m c 0 :=
  (dats m 0 c).arrAt_eq_of_cover 3 (target m c 0) (fun t _ => flushed3_eq m c t) cover3

/-! ## Result 1 (output window 4) -/

/-- Its window moves one block of rows per point. -/
theorem index4 : ∀ t : Fin cfg0.N, win0_4.index t (0 : Fin 2) = t.val ∧ win0_4.index t (1 : Fin 2) = 0 :=
  (by decide +kernel : ∀ t : Fin grid0.N, _)

/-- What point `t` writes back is block `t` of direction 1's affine map. -/
theorem flushed4_eq (c : Dev nD) (t : Fin cfg0.N) :
    (dats m 0 c).flushed 4 t = ((cfg0.win 4).blk t).view.read (Elt Ideal) (target m c 1) := by
  obtain ⟨e0, e1⟩ := index4 t
  have hN : cfg0.N = 25 := N_0
  rw [Value.flushed4]
  unfold out0_4
  rw [View.canon_unit_zero hz2]
  simp only [View.ld_unit_zero (S := S4000x128) hz2]
  rw [pay5_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 4).blk t).view.emb (ix2 p q) = (ix2 (⟨t.val * 4000 + p.val, by omega⟩ : Fin 100000) q : S100000x128.Idx) := by
    funext a; apply Fin.ext
    match a with
    | ⟨0, _⟩ => show win0_4.index t (0 : Fin 2) * 4000 + 1 * p.val = t.val * 4000 + p.val; omega
    | ⟨1, _⟩ => show win0_4.index t (1 : Fin 2) * 128 + 1 * q.val = q.val; omega
  show slab (iblk m c 0 t) (View.ld (iblk m c 1 t) r0_3) (View.ld (iblk m c 2 t) r0_4) (ix2 p q) = target m c 1 (((cfg0.win 4).blk t).view.emb (ix2 p q))
  rw [hpos]
  exact stored_entry m c t 1 _ _ p q _ rfl

/-- An index is in point `t`'s block iff each coordinate is in the block's range on its axis. -/
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v0_1).slice (win0_4.rect t)).set ↔ _
  rw [View.set_slice_whole, Rect.mem_set_unit]
  exact Iff.rfl

/-- The blocks of 4000 rows cover the array: row `r` is in the block of point `r / 4000`. -/
theorem cover4 (i : S100000x128.Idx) : ∃ t : Fin cfg0.N, (cfg0.win 4).flush t = true ∧ i ∈ ((cfg0.win 4).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index4 ⟨(i 0).val / 4000, ht⟩
  refine ⟨⟨(i 0).val / 4000, ht⟩, flush0_4 _, ?_⟩
  rw [mem_blk4]
  intro a
  match a with
  | ⟨0, _⟩ => show win0_4.index ⟨(i 0).val / 4000, ht⟩ (0 : Fin 2) * 4000 ≤ (i 0).val ∧ (i 0).val < win0_4.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_4.index ⟨(i 0).val / 4000, ht⟩ (1 : Fin 2) * 128 ≤ (i 1).val ∧ (i 1).val < win0_4.index ⟨(i 0).val / 4000, ht⟩ (1 : Fin 2) * 128 + 128; rw [e1]; omega

/-- So result 1 ends holding direction 1's affine map of the arguments. -/
theorem final4 (c : Dev nD) : (dats m 0 c).arrAt 4 cfg0.N = target m c 1 :=
  (dats m 0 c).arrAt_eq_of_cover 4 (target m c 1) (fun t _ => flushed4_eq m c t) cover4

/-! ## Result 2 (output window 5) -/

/-- Its window moves one block of rows per point. -/
theorem index5 : ∀ t : Fin cfg0.N, win0_5.index t (0 : Fin 2) = t.val ∧ win0_5.index t (1 : Fin 2) = 0 :=
  (by decide +kernel : ∀ t : Fin grid0.N, _)

/-- What point `t` writes back is block `t` of direction 2's affine map. -/
theorem flushed5_eq (c : Dev nD) (t : Fin cfg0.N) :
    (dats m 0 c).flushed 5 t = ((cfg0.win 5).blk t).view.read (Elt Ideal) (target m c 2) := by
  obtain ⟨e0, e1⟩ := index5 t
  have hN : cfg0.N = 25 := N_0
  rw [Value.flushed5]
  unfold out0_5
  rw [View.canon_unit_zero hz2]
  simp only [View.ld_unit_zero (S := S4000x128) hz2]
  rw [pay6_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 5).blk t).view.emb (ix2 p q) = (ix2 (⟨t.val * 4000 + p.val, by omega⟩ : Fin 100000) q : S100000x128.Idx) := by
    funext a; apply Fin.ext
    match a with
    | ⟨0, _⟩ => show win0_5.index t (0 : Fin 2) * 4000 + 1 * p.val = t.val * 4000 + p.val; omega
    | ⟨1, _⟩ => show win0_5.index t (1 : Fin 2) * 128 + 1 * q.val = q.val; omega
  show slab (iblk m c 0 t) (View.ld (iblk m c 1 t) r0_5) (View.ld (iblk m c 2 t) r0_6) (ix2 p q) = target m c 2 (((cfg0.win 5).blk t).view.emb (ix2 p q))
  rw [hpos]
  exact stored_entry m c t 2 _ _ p q _ rfl

/-- An index is in point `t`'s block iff each coordinate is in the block's range on its axis. -/
theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v0_2).slice (win0_5.rect t)).set ↔ _
  rw [View.set_slice_whole, Rect.mem_set_unit]
  exact Iff.rfl

/-- The blocks of 4000 rows cover the array: row `r` is in the block of point `r / 4000`. -/
theorem cover5 (i : S100000x128.Idx) : ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index5 ⟨(i 0).val / 4000, ht⟩
  refine ⟨⟨(i 0).val / 4000, ht⟩, flush0_5 _, ?_⟩
  rw [mem_blk5]
  intro a
  match a with
  | ⟨0, _⟩ => show win0_5.index ⟨(i 0).val / 4000, ht⟩ (0 : Fin 2) * 4000 ≤ (i 0).val ∧ (i 0).val < win0_5.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_5.index ⟨(i 0).val / 4000, ht⟩ (1 : Fin 2) * 128 ≤ (i 1).val ∧ (i 1).val < win0_5.index ⟨(i 0).val / 4000, ht⟩ (1 : Fin 2) * 128 + 128; rw [e1]; omega

/-- So result 2 ends holding direction 2's affine map of the arguments. -/
theorem final5 (c : Dev nD) : (dats m 0 c).arrAt 5 cfg0.N = target m c 2 :=
  (dats m 0 c).arrAt_eq_of_cover 5 (target m c 2) (fun t _ => flushed5_eq m c t) cover5

end Cert.KernelIdeal.ResultsA

end
-- ==== Proof.ResultsB.lean ====
/-
  Results 3, 4 and 5 of the kernel as whole arrays.

  For each result: grid point `t` writes back the block of rows `4000·t … 4000·t + 3999`, whose entries are the
  direction's affine map at those rows; the 25 blocks cover the 100000 rows (row `r` lies in the block of point
  `r / 4000`); so after the run the array is the direction's affine map of the arguments.
-/
import proofs.«138845_g40656160424518_cont_8to1_b_389_5_alg».proof.Proof.Gen.KernelIdeal.Value
import proofs.«138845_g40656160424518_cont_8to1_b_389_5_alg».proof.Proof.Stored

noncomputable section

namespace Cert.KernelIdeal.ResultsB

open Cert.KernelIdeal Cert.KernelIdeal.Gen Cert.KernelIdeal.Body Cert.KernelIdeal.Stored Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Result 3 (output window 6) -/

/-- Its window moves one block of rows per point. -/
theorem index6 : ∀ t : Fin cfg0.N, win0_6.index t (0 : Fin 2) = t.val ∧ win0_6.index t (1 : Fin 2) = 0 :=
  (by decide +kernel : ∀ t : Fin grid0.N, _)

/-- What point `t` writes back is block `t` of direction 3's affine map. -/
theorem flushed6_eq (c : Dev nD) (t : Fin cfg0.N) :
    (dats m 0 c).flushed 6 t = ((cfg0.win 6).blk t).view.read (Elt Ideal) (target m c 3) := by
  obtain ⟨e0, e1⟩ := index6 t
  have hN : cfg0.N = 25 := N_0
  rw [Value.flushed6]
  unfold out0_6
  rw [View.canon_unit_zero hz2]
  simp only [View.ld_unit_zero (S := S4000x128) hz2]
  rw [pay7_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 6).blk t).view.emb (ix2 p q) = (ix2 (⟨t.val * 4000 + p.val, by omega⟩ : Fin 100000) q : S100000x128.Idx) := by
    funext a; apply Fin.ext
    match a with
    | ⟨0, _⟩ => show win0_6.index t (0 : Fin 2) * 4000 + 1 * p.val = t.val * 4000 + p.val; omega
    | ⟨1, _⟩ => show win0_6.index t (1 : Fin 2) * 128 + 1 * q.val = q.val; omega
  show slab (iblk m c 0 t) (View.ld (iblk m c 1 t) r0_7) (View.ld (iblk m c 2 t) r0_8) (ix2 p q) = target m c 3 (((cfg0.win 6).blk t).view.emb (ix2 p q))
  rw [hpos]
  exact stored_entry m c t 3 _ _ p q _ rfl

/-- An index is in point `t`'s block iff each coordinate is in the block's range on its axis. -/
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v0_3).slice (win0_6.rect t)).set ↔ _
  rw [View.set_slice_whole, Rect.mem_set_unit]
  exact Iff.rfl

/-- The blocks of 4000 rows cover the array: row `r` is in the block of point `r / 4000`. -/
theorem cover6 (i : S100000x128.Idx) : ∃ t : Fin cfg0.N, (cfg0.win 6).flush t = true ∧ i ∈ ((cfg0.win 6).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index6 ⟨(i 0).val / 4000, ht⟩
  refine ⟨⟨(i 0).val / 4000, ht⟩, flush0_6 _, ?_⟩
  rw [mem_blk6]
  intro a
  match a with
  | ⟨0, _⟩ => show win0_6.index ⟨(i 0).val / 4000, ht⟩ (0 : Fin 2) * 4000 ≤ (i 0).val ∧ (i 0).val < win0_6.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_6.index ⟨(i 0).val / 4000, ht⟩ (1 : Fin 2) * 128 ≤ (i 1).val ∧ (i 1).val < win0_6.index ⟨(i 0).val / 4000, ht⟩ (1 : Fin 2) * 128 + 128; rw [e1]; omega

/-- So result 3 ends holding direction 3's affine map of the arguments. -/
theorem final6 (c : Dev nD) : (dats m 0 c).arrAt 6 cfg0.N = target m c 3 :=
  (dats m 0 c).arrAt_eq_of_cover 6 (target m c 3) (fun t _ => flushed6_eq m c t) cover6

/-! ## Result 4 (output window 7) -/

/-- Its window moves one block of rows per point. -/
theorem index7 : ∀ t : Fin cfg0.N, win0_7.index t (0 : Fin 2) = t.val ∧ win0_7.index t (1 : Fin 2) = 0 :=
  (by decide +kernel : ∀ t : Fin grid0.N, _)

/-- What point `t` writes back is block `t` of direction 4's affine map. -/
theorem flushed7_eq (c : Dev nD) (t : Fin cfg0.N) :
    (dats m 0 c).flushed 7 t = ((cfg0.win 7).blk t).view.read (Elt Ideal) (target m c 4) := by
  obtain ⟨e0, e1⟩ := index7 t
  have hN : cfg0.N = 25 := N_0
  rw [Value.flushed7]
  unfold out0_7
  rw [View.canon_unit_zero hz2]
  simp only [View.ld_unit_zero (S := S4000x128) hz2]
  rw [pay8_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 7).blk t).view.emb (ix2 p q) = (ix2 (⟨t.val * 4000 + p.val, by omega⟩ : Fin 100000) q : S100000x128.Idx) := by
    funext a; apply Fin.ext
    match a with
    | ⟨0, _⟩ => show win0_7.index t (0 : Fin 2) * 4000 + 1 * p.val = t.val * 4000 + p.val; omega
    | ⟨1, _⟩ => show win0_7.index t (1 : Fin 2) * 128 + 1 * q.val = q.val; omega
  show slab (iblk m c 0 t) (View.ld (iblk m c 1 t) r0_9) (View.ld (iblk m c 2 t) r0_10) (ix2 p q) = target m c 4 (((cfg0.win 7).blk t).view.emb (ix2 p q))
  rw [hpos]
  exact stored_entry m c t 4 _ _ p q _ rfl

/-- An index is in point `t`'s block iff each coordinate is in the block's range on its axis. -/
theorem mem_blk7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v0_4).slice (win0_7.rect t)).set ↔ _
  rw [View.set_slice_whole, Rect.mem_set_unit]
  exact Iff.rfl

/-- The blocks of 4000 rows cover the array: row `r` is in the block of point `r / 4000`. -/
theorem cover7 (i : S100000x128.Idx) : ∃ t : Fin cfg0.N, (cfg0.win 7).flush t = true ∧ i ∈ ((cfg0.win 7).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index7 ⟨(i 0).val / 4000, ht⟩
  refine ⟨⟨(i 0).val / 4000, ht⟩, flush0_7 _, ?_⟩
  rw [mem_blk7]
  intro a
  match a with
  | ⟨0, _⟩ => show win0_7.index ⟨(i 0).val / 4000, ht⟩ (0 : Fin 2) * 4000 ≤ (i 0).val ∧ (i 0).val < win0_7.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_7.index ⟨(i 0).val / 4000, ht⟩ (1 : Fin 2) * 128 ≤ (i 1).val ∧ (i 1).val < win0_7.index ⟨(i 0).val / 4000, ht⟩ (1 : Fin 2) * 128 + 128; rw [e1]; omega

/-- So result 4 ends holding direction 4's affine map of the arguments. -/
theorem final7 (c : Dev nD) : (dats m 0 c).arrAt 7 cfg0.N = target m c 4 :=
  (dats m 0 c).arrAt_eq_of_cover 7 (target m c 4) (fun t _ => flushed7_eq m c t) cover7

/-! ## Result 5 (output window 8) -/

/-- Its window moves one block of rows per point. -/
theorem index8 : ∀ t : Fin cfg0.N, win0_8.index t (0 : Fin 2) = t.val ∧ win0_8.index t (1 : Fin 2) = 0 :=
  (by decide +kernel : ∀ t : Fin grid0.N, _)

/-- What point `t` writes back is block `t` of direction 5's affine map. -/
theorem flushed8_eq (c : Dev nD) (t : Fin cfg0.N) :
    (dats m 0 c).flushed 8 t = ((cfg0.win 8).blk t).view.read (Elt Ideal) (target m c 5) := by
  obtain ⟨e0, e1⟩ := index8 t
  have hN : cfg0.N = 25 := N_0
  rw [Value.flushed8]
  unfold out0_8
  rw [View.canon_unit_zero hz2]
  simp only [View.ld_unit_zero (S := S4000x128) hz2]
  rw [pay9_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 8).blk t).view.emb (ix2 p q) = (ix2 (⟨t.val * 4000 + p.val, by omega⟩ : Fin 100000) q : S100000x128.Idx) := by
    funext a; apply Fin.ext
    match a with
    | ⟨0, _⟩ => show win0_8.index t (0 : Fin 2) * 4000 + 1 * p.val = t.val * 4000 + p.val; omega
    | ⟨1, _⟩ => show win0_8.index t (1 : Fin 2) * 128 + 1 * q.val = q.val; omega
  show slab (iblk m c 0 t) (View.ld (iblk m c 1 t) r0_11) (View.ld (iblk m c 2 t) r0_12) (ix2 p q) = target m c 5 (((cfg0.win 8).blk t).view.emb (ix2 p q))
  rw [hpos]
  exact stored_entry m c t 5 _ _ p q _ rfl

/-- An index is in point `t`'s block iff each coordinate is in the block's range on its axis. -/
theorem mem_blk8 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v0_5).slice (win0_8.rect t)).set ↔ _
  rw [View.set_slice_whole, Rect.mem_set_unit]
  exact Iff.rfl

/-- The blocks of 4000 rows cover the array: row `r` is in the block of point `r / 4000`. -/
theorem cover8 (i : S100000x128.Idx) : ∃ t : Fin cfg0.N, (cfg0.win 8).flush t = true ∧ i ∈ ((cfg0.win 8).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index8 ⟨(i 0).val / 4000, ht⟩
  refine ⟨⟨(i 0).val / 4000, ht⟩, flush0_8 _, ?_⟩
  rw [mem_blk8]
  intro a
  match a with
  | ⟨0, _⟩ => show win0_8.index ⟨(i 0).val / 4000, ht⟩ (0 : Fin 2) * 4000 ≤ (i 0).val ∧ (i 0).val < win0_8.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_8.index ⟨(i 0).val / 4000, ht⟩ (1 : Fin 2) * 128 ≤ (i 1).val ∧ (i 1).val < win0_8.index ⟨(i 0).val / 4000, ht⟩ (1 : Fin 2) * 128 + 128; rw [e1]; omega

/-- So result 5 ends holding direction 5's affine map of the arguments. -/
theorem final8 (c : Dev nD) : (dats m 0 c).arrAt 8 cfg0.N = target m c 5 :=
  (dats m 0 c).arrAt_eq_of_cover 8 (target m c 5) (fun t _ => flushed8_eq m c t) cover8

end Cert.KernelIdeal.ResultsB

end
-- ==== Proof.ResultsC.lean ====
/-
  Results 6, 7 and 8 of the kernel as whole arrays.

  For each result: grid point `t` writes back the block of rows `4000·t … 4000·t + 3999`, whose entries are the
  direction's affine map at those rows; the 25 blocks cover the 100000 rows (row `r` lies in the block of point
  `r / 4000`); so after the run the array is the direction's affine map of the arguments.
-/
import proofs.«138845_g40656160424518_cont_8to1_b_389_5_alg».proof.Proof.Gen.KernelIdeal.Value
import proofs.«138845_g40656160424518_cont_8to1_b_389_5_alg».proof.Proof.Stored

noncomputable section

namespace Cert.KernelIdeal.ResultsC

open Cert.KernelIdeal Cert.KernelIdeal.Gen Cert.KernelIdeal.Body Cert.KernelIdeal.Stored Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Result 6 (output window 9) -/

/-- Its window moves one block of rows per point. -/
theorem index9 : ∀ t : Fin cfg0.N, win0_9.index t (0 : Fin 2) = t.val ∧ win0_9.index t (1 : Fin 2) = 0 :=
  (by decide +kernel : ∀ t : Fin grid0.N, _)

/-- What point `t` writes back is block `t` of direction 6's affine map. -/
theorem flushed9_eq (c : Dev nD) (t : Fin cfg0.N) :
    (dats m 0 c).flushed 9 t = ((cfg0.win 9).blk t).view.read (Elt Ideal) (target m c 6) := by
  obtain ⟨e0, e1⟩ := index9 t
  have hN : cfg0.N = 25 := N_0
  rw [Value.flushed9]
  unfold out0_9
  rw [View.canon_unit_zero hz2]
  simp only [View.ld_unit_zero (S := S4000x128) hz2]
  rw [pay1_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 9).blk t).view.emb (ix2 p q) = (ix2 (⟨t.val * 4000 + p.val, by omega⟩ : Fin 100000) q : S100000x128.Idx) := by
    funext a; apply Fin.ext
    match a with
    | ⟨0, _⟩ => show win0_9.index t (0 : Fin 2) * 4000 + 1 * p.val = t.val * 4000 + p.val; omega
    | ⟨1, _⟩ => show win0_9.index t (1 : Fin 2) * 128 + 1 * q.val = q.val; omega
  show slab (iblk m c 0 t) (View.ld (iblk m c 1 t) r0_13) (View.ld (iblk m c 2 t) r0_14) (ix2 p q) = target m c 6 (((cfg0.win 9).blk t).view.emb (ix2 p q))
  rw [hpos]
  exact stored_entry m c t 6 _ _ p q _ rfl

/-- An index is in point `t`'s block iff each coordinate is in the block's range on its axis. -/
theorem mem_blk9 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v0_6).slice (win0_9.rect t)).set ↔ _
  rw [View.set_slice_whole, Rect.mem_set_unit]
  exact Iff.rfl

/-- The blocks of 4000 rows cover the array: row `r` is in the block of point `r / 4000`. -/
theorem cover9 (i : S100000x128.Idx) : ∃ t : Fin cfg0.N, (cfg0.win 9).flush t = true ∧ i ∈ ((cfg0.win 9).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index9 ⟨(i 0).val / 4000, ht⟩
  refine ⟨⟨(i 0).val / 4000, ht⟩, flush0_9 _, ?_⟩
  rw [mem_blk9]
  intro a
  match a with
  | ⟨0, _⟩ => show win0_9.index ⟨(i 0).val / 4000, ht⟩ (0 : Fin 2) * 4000 ≤ (i 0).val ∧ (i 0).val < win0_9.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_9.index ⟨(i 0).val / 4000, ht⟩ (1 : Fin 2) * 128 ≤ (i 1).val ∧ (i 1).val < win0_9.index ⟨(i 0).val / 4000, ht⟩ (1 : Fin 2) * 128 + 128; rw [e1]; omega

/-- So result 6 ends holding direction 6's affine map of the arguments. -/
theorem final9 (c : Dev nD) : (dats m 0 c).arrAt 9 cfg0.N = target m c 6 :=
  (dats m 0 c).arrAt_eq_of_cover 9 (target m c 6) (fun t _ => flushed9_eq m c t) cover9

/-! ## Result 7 (output window 10) -/

/-- Its window moves one block of rows per point. -/
theorem index10 : ∀ t : Fin cfg0.N, win0_10.index t (0 : Fin 2) = t.val ∧ win0_10.index t (1 : Fin 2) = 0 :=
  (by decide +kernel : ∀ t : Fin grid0.N, _)

/-- What point `t` writes back is block `t` of direction 7's affine map. -/
theorem flushed10_eq (c : Dev nD) (t : Fin cfg0.N) :
    (dats m 0 c).flushed 10 t = ((cfg0.win 10).blk t).view.read (Elt Ideal) (target m c 7) := by
  obtain ⟨e0, e1⟩ := index10 t
  have hN : cfg0.N = 25 := N_0
  rw [Value.flushed10]
  unfold out0_10
  rw [View.canon_unit_zero hz2]
  simp only [View.ld_unit_zero (S := S4000x128) hz2]
  rw [pay2_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 10).blk t).view.emb (ix2 p q) = (ix2 (⟨t.val * 4000 + p.val, by omega⟩ : Fin 100000) q : S100000x128.Idx) := by
    funext a; apply Fin.ext
    match a with
    | ⟨0, _⟩ => show win0_10.index t (0 : Fin 2) * 4000 + 1 * p.val = t.val * 4000 + p.val; omega
    | ⟨1, _⟩ => show win0_10.index t (1 : Fin 2) * 128 + 1 * q.val = q.val; omega
  show slab (iblk m c 0 t) (View.ld (iblk m c 1 t) r0_15) (View.ld (iblk m c 2 t) r0_16) (ix2 p q) = target m c 7 (((cfg0.win 10).blk t).view.emb (ix2 p q))
  rw [hpos]
  exact stored_entry m c t 7 _ _ p q _ rfl

/-- An index is in point `t`'s block iff each coordinate is in the block's range on its axis. -/
theorem mem_blk10 (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v0_7).slice (win0_10.rect t)).set ↔ _
  rw [View.set_slice_whole, Rect.mem_set_unit]
  exact Iff.rfl

/-- The blocks of 4000 rows cover the array: row `r` is in the block of point `r / 4000`. -/
theorem cover10 (i : S100000x128.Idx) : ∃ t : Fin cfg0.N, (cfg0.win 10).flush t = true ∧ i ∈ ((cfg0.win 10).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index10 ⟨(i 0).val / 4000, ht⟩
  refine ⟨⟨(i 0).val / 4000, ht⟩, flush0_10 _, ?_⟩
  rw [mem_blk10]
  intro a
  match a with
  | ⟨0, _⟩ => show win0_10.index ⟨(i 0).val / 4000, ht⟩ (0 : Fin 2) * 4000 ≤ (i 0).val ∧ (i 0).val < win0_10.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_10.index ⟨(i 0).val / 4000, ht⟩ (1 : Fin 2) * 128 ≤ (i 1).val ∧ (i 1).val < win0_10.index ⟨(i 0).val / 4000, ht⟩ (1 : Fin 2) * 128 + 128; rw [e1]; omega

/-- So result 7 ends holding direction 7's affine map of the arguments. -/
theorem final10 (c : Dev nD) : (dats m 0 c).arrAt 10 cfg0.N = target m c 7 :=
  (dats m 0 c).arrAt_eq_of_cover 10 (target m c 7) (fun t _ => flushed10_eq m c t) cover10

/-! ## Result 8 (output window 11) -/

/-- Its window moves one block of rows per point. -/
theorem index11 : ∀ t : Fin cfg0.N, win0_11.index t (0 : Fin 2) = t.val ∧ win0_11.index t (1 : Fin 2) = 0 :=
  (by decide +kernel : ∀ t : Fin grid0.N, _)

/-- What point `t` writes back is block `t` of direction 8's affine map. -/
theorem flushed11_eq (c : Dev nD) (t : Fin cfg0.N) :
    (dats m 0 c).flushed 11 t = ((cfg0.win 11).blk t).view.read (Elt Ideal) (target m c 8) := by
  obtain ⟨e0, e1⟩ := index11 t
  have hN : cfg0.N = 25 := N_0
  rw [Value.flushed11]
  unfold out0_11
  rw [View.canon_unit_zero hz2]
  simp only [View.ld_unit_zero (S := S4000x128) hz2]
  rw [pay3_eq]
  funext y
  obtain ⟨p, q, rfl⟩ : ∃ (p : Fin 4000) (q : Fin 128), y = ix2 p q := ⟨y 0, y 1, eq_ix2 y⟩
  have hp : p.val < 4000 := p.isLt
  have ht : t.val < 25 := hN ▸ t.isLt
  have hpos : ((cfg0.win 11).blk t).view.emb (ix2 p q) = (ix2 (⟨t.val * 4000 + p.val, by omega⟩ : Fin 100000) q : S100000x128.Idx) := by
    funext a; apply Fin.ext
    match a with
    | ⟨0, _⟩ => show win0_11.index t (0 : Fin 2) * 4000 + 1 * p.val = t.val * 4000 + p.val; omega
    | ⟨1, _⟩ => show win0_11.index t (1 : Fin 2) * 128 + 1 * q.val = q.val; omega
  show slab (iblk m c 0 t) (View.ld (iblk m c 1 t) r0_17) (View.ld (iblk m c 2 t) r0_18) (ix2 p q) = target m c 8 (((cfg0.win 11).blk t).view.emb (ix2 p q))
  rw [hpos]
  exact stored_entry m c t 8 _ _ p q _ rfl

/-- An index is in point `t`'s block iff each coordinate is in the block's range on its axis. -/
theorem mem_blk11 (t : Fin cfg0.N) (i : S100000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v0_8).slice (win0_11.rect t)).set ↔ _
  rw [View.set_slice_whole, Rect.mem_set_unit]
  exact Iff.rfl

/-- The blocks of 4000 rows cover the array: row `r` is in the block of point `r / 4000`. -/
theorem cover11 (i : S100000x128.Idx) : ∃ t : Fin cfg0.N, (cfg0.win 11).flush t = true ∧ i ∈ ((cfg0.win 11).blk t).view.set := by
  have h0 : (i 0).val < 100000 := (i 0).isLt
  have h1 : (i 1).val < 128 := (i 1).isLt
  have hN : cfg0.N = 25 := N_0
  have ht : (i 0).val / 4000 < cfg0.N := by omega
  obtain ⟨e0, e1⟩ := index11 ⟨(i 0).val / 4000, ht⟩
  refine ⟨⟨(i 0).val / 4000, ht⟩, flush0_11 _, ?_⟩
  rw [mem_blk11]
  intro a
  match a with
  | ⟨0, _⟩ => show win0_11.index ⟨(i 0).val / 4000, ht⟩ (0 : Fin 2) * 4000 ≤ (i 0).val ∧ (i 0).val < win0_11.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win0_11.index ⟨(i 0).val / 4000, ht⟩ (1 : Fin 2) * 128 ≤ (i 1).val ∧ (i 1).val < win0_11.index ⟨(i 0).val / 4000, ht⟩ (1 : Fin 2) * 128 + 128; rw [e1]; omega

/-- So result 8 ends holding direction 8's affine map of the arguments. -/
theorem final11 (c : Dev nD) : (dats m 0 c).arrAt 11 cfg0.N = target m c 8 :=
  (dats m 0 c).arrAt_eq_of_cover 11 (target m c 8) (fun t _ => flushed11_eq m c t) cover11

end Cert.KernelIdeal.ResultsC

end
-- ==== Proof.KernelRun.lean ====
/-
  The kernel's run, read: every weakly fair execution ends with each of the nine result arrays holding its
  direction's affine map of the argument arrays, and the arguments unchanged.
-/
import proofs.«138845_g40656160424518_cont_8to1_b_389_5_alg».proof.Proof.Gen.KernelIdeal.Value
import proofs.«138845_g40656160424518_cont_8to1_b_389_5_alg».proof.Proof.ResultsA
import proofs.«138845_g40656160424518_cont_8to1_b_389_5_alg».proof.Proof.ResultsB
import proofs.«138845_g40656160424518_cont_8to1_b_389_5_alg».proof.Proof.ResultsC

noncomputable section

namespace Cert.KernelIdeal.KernelRun

open Cert.KernelIdeal Cert.KernelIdeal.Gen Cert.KernelIdeal.Stored Idealize.ShloMosaic Idealize.ShloMosaic.TcCoe Idealize.SL.Sem

variable (m : (ℓ : Loc nD τ sig) → Buf (Elt Ideal) ℓ) (ρ : Dev nD → PrngReg)

/-- The run with each result array at its direction's affine map of the arguments as launched. -/
theorem run : θ_run defs (onTc (τ := τ) (main (F := Ideal))) ⟨m, fun _ => 0, ρ⟩ fun r => ∀ c : Dev nD,
      r.2.mem ((c : Thread nD τ).loc main_v0_0) = target m c 0
      ∧ r.2.mem ((c : Thread nD τ).loc main_v0_1) = target m c 1
      ∧ r.2.mem ((c : Thread nD τ).loc main_v0_2) = target m c 2
      ∧ r.2.mem ((c : Thread nD τ).loc main_v0_3) = target m c 3
      ∧ r.2.mem ((c : Thread nD τ).loc main_v0_4) = target m c 4
      ∧ r.2.mem ((c : Thread nD τ).loc main_v0_5) = target m c 5
      ∧ r.2.mem ((c : Thread nD τ).loc main_v0_6) = target m c 6
      ∧ r.2.mem ((c : Thread nD τ).loc main_v0_7) = target m c 7
      ∧ r.2.mem ((c : Thread nD τ).loc main_v0_8) = target m c 8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, h1, h2, h3, h4, h5, h6, h7, h8, hkept⟩ := h c
    exact ⟨h0.trans (ResultsA.final3 m c), h1.trans (ResultsA.final4 m c), h2.trans (ResultsA.final5 m c),
      h3.trans (ResultsB.final6 m c), h4.trans (ResultsB.final7 m c), h5.trans (ResultsB.final8 m c),
      h6.trans (ResultsC.final9 m c), h7.trans (ResultsC.final10 m c), h8.trans (ResultsC.final11 m c), hkept⟩)
    (Value.run_blocks m ρ)

end Cert.KernelIdeal.KernelRun

end
-- ==== Proof.RefValue.lean ====
/-
  The reference, entry by entry.

  The reference contracts the weights [9, 128, 128] with the input [100000, 128] over the input-channel axis into
  a [9, 128, 100000] array, swaps its last two axes, adds the bias broadcast along the rows, and returns the nine
  [100000, 128] slabs of the [9, 100000, 128] sum. Entry `(k, n, o)` of that sum is
      ∑ j, W[k, o, j] · X[n, j]  +  B[k, o],
  which is direction `k`'s entry `(n, o)` once each product is commuted; and slab `k`, squeezed, at `(n, o)` is the
  sum's entry `(k, n, o)`.
-/
import proofs.«138845_g40656160424518_cont_8to1_b_389_5_alg».proof.Proof.Gen.ReferenceIdeal.Read
import proofs.«138845_g40656160424518_cont_8to1_b_389_5_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- Entry `(k, n, o)` of the sum the reference slices: direction `k`'s entry `(n, o)`. The reference multiplies
    weight by input where the specification multiplies input by weight. -/
theorem sum_entry (x0 : FVec Ideal S100000x128 .f32) (x1 : FVec Ideal S9x128x128 .f32) (x2 : FVec Ideal S9x128 .f32)
    (k : Fin 9) (n : Fin 100000) (o : Fin 128) :
    val_main_v4 (F := Ideal) x0 x1 x2 (ix3 k n o) = Cert.Directional.entry k x0 x1 x2 n o := by
  rw [val_main_v4_apply, val_main_v1_apply, val_main_v0_apply, val_main_v3_apply, val_main_v2_apply]
  have el : ∀ j : Fin 128, lidx_main_v0 (idx_main_v1 (ix3 k n o)) j = ix3 k o j := fun j => funext fun a => Fin.ext (by
    match a with | ⟨0, _⟩ => rfl | ⟨1, _⟩ => rfl | ⟨2, _⟩ => rfl)
  have er : ∀ j : Fin 128, ridx_main_v0 (idx_main_v1 (ix3 k n o)) j = ix2 n j := fun j => funext fun a => Fin.ext (by
    match a with | ⟨0, _⟩ => rfl | ⟨1, _⟩ => rfl)
  have eb : idx_main_v2 (idx_main_v3 (ix3 k n o)) = ix2 k o := funext fun a => Fin.ext (by
    match a with | ⟨0, _⟩ => rfl | ⟨1, _⟩ => rfl)
  rw [eb]
  unfold Cert.Directional.entry
  show (∑ j : Fin 128, x1 (lidx_main_v0 (idx_main_v1 (ix3 k n o)) j) * x0 (ridx_main_v0 (idx_main_v1 (ix3 k n o)) j)) + x2 (ix2 k o) = _
  refine congrArg (· + x2 (ix2 k o)) (Finset.sum_congr rfl fun j _ => ?_)
  rw [el j, er j]
  exact mul_comm _ _

/-- Slab `k` of a [9, 100000, 128] array, squeezed to [100000, 128], at `i` is the array at `(k, i 0, i 1)`. -/
theorem slab_entry (Y : FVec Ideal S9x100000x128 .f32) (k : Fin 9) (h : S9x100000x128.Slices ![k.val, 0, 0] S1x100000x128) (i : S100000x128.Idx) :
    shapeCast S100000x128 (extractStridedSlice S1x100000x128 ![k.val, 0, 0] Y h) shapeCasts_S1x100000x128_S100000x128 i = Y (ix3 k (i 0) (i 1)) := by
  have h0 : (i 0).val < 100000 := (i 0).isLt
  have h1 : (i 1).val < 128 := (i 1).isLt
  refine (shapeCast_apply _ shapeCasts_S1x100000x128_S100000x128 i (ix3 (0 : Fin 1) (i 0) (i 1)) ?_).trans ?_
  · rw [Shape.rowMajor_val_three, Shape.rowMajor_val_two]
    show (0 * 100000 + (i 0).val) * 128 + (i 1).val = (i 0).val * 128 + (i 1).val
    omega
  · exact extractStridedSlice_apply ![k.val, 0, 0] Y h (ix3 (0 : Fin 1) (i 0) (i 1)) (ix3 k (i 0) (i 1)) (fun a => match a with
      | ⟨0, _⟩ => by show k.val = k.val + 0; omega
      | ⟨1, _⟩ => by show (i 0).val = 0 + (i 0).val; omega
      | ⟨2, _⟩ => by show (i 1).val = 0 + (i 1).val; omega)

/-- Each of the reference's nine results is its direction's affine map of the arguments. -/
theorem result0 (x0 : FVec Ideal S100000x128 .f32) (x1 : FVec Ideal S9x128x128 .f32) (x2 : FVec Ideal S9x128 .f32) :
    val_main_v6 (F := Ideal) x0 x1 x2 = Cert.Directional.affine 0 x0 x1 x2 :=
  funext fun i => (slab_entry (val_main_v4 (F := Ideal) x0 x1 x2) 0 slices_S9x100000x128_S1x100000x128_0_0_0 i).trans (sum_entry x0 x1 x2 0 (i 0) (i 1))
theorem result1 (x0 : FVec Ideal S100000x128 .f32) (x1 : FVec Ideal S9x128x128 .f32) (x2 : FVec Ideal S9x128 .f32) :
    val_main_v8 (F := Ideal) x0 x1 x2 = Cert.Directional.affine 1 x0 x1 x2 :=
  funext fun i => (slab_entry (val_main_v4 (F := Ideal) x0 x1 x2) 1 slices_S9x100000x128_S1x100000x128_1_0_0 i).trans (sum_entry x0 x1 x2 1 (i 0) (i 1))
theorem result2 (x0 : FVec Ideal S100000x128 .f32) (x1 : FVec Ideal S9x128x128 .f32) (x2 : FVec Ideal S9x128 .f32) :
    val_main_v10 (F := Ideal) x0 x1 x2 = Cert.Directional.affine 2 x0 x1 x2 :=
  funext fun i => (slab_entry (val_main_v4 (F := Ideal) x0 x1 x2) 2 slices_S9x100000x128_S1x100000x128_2_0_0 i).trans (sum_entry x0 x1 x2 2 (i 0) (i 1))
theorem result3 (x0 : FVec Ideal S100000x128 .f32) (x1 : FVec Ideal S9x128x128 .f32) (x2 : FVec Ideal S9x128 .f32) :
    val_main_v12 (F := Ideal) x0 x1 x2 = Cert.Directional.affine 3 x0 x1 x2 :=
  funext fun i => (slab_entry (val_main_v4 (F := Ideal) x0 x1 x2) 3 slices_S9x100000x128_S1x100000x128_3_0_0 i).trans (sum_entry x0 x1 x2 3 (i 0) (i 1))
theorem result4 (x0 : FVec Ideal S100000x128 .f32) (x1 : FVec Ideal S9x128x128 .f32) (x2 : FVec Ideal S9x128 .f32) :
    val_main_v14 (F := Ideal) x0 x1 x2 = Cert.Directional.affine 4 x0 x1 x2 :=
  funext fun i => (slab_entry (val_main_v4 (F := Ideal) x0 x1 x2) 4 slices_S9x100000x128_S1x100000x128_4_0_0 i).trans (sum_entry x0 x1 x2 4 (i 0) (i 1))
theorem result5 (x0 : FVec Ideal S100000x128 .f32) (x1 : FVec Ideal S9x128x128 .f32) (x2 : FVec Ideal S9x128 .f32) :
    val_main_v16 (F := Ideal) x0 x1 x2 = Cert.Directional.affine 5 x0 x1 x2 :=
  funext fun i => (slab_entry (val_main_v4 (F := Ideal) x0 x1 x2) 5 slices_S9x100000x128_S1x100000x128_5_0_0 i).trans (sum_entry x0 x1 x2 5 (i 0) (i 1))
theorem result6 (x0 : FVec Ideal S100000x128 .f32) (x1 : FVec Ideal S9x128x128 .f32) (x2 : FVec Ideal S9x128 .f32) :
    val_main_v18 (F := Ideal) x0 x1 x2 = Cert.Directional.affine 6 x0 x1 x2 :=
  funext fun i => (slab_entry (val_main_v4 (F := Ideal) x0 x1 x2) 6 slices_S9x100000x128_S1x100000x128_6_0_0 i).trans (sum_entry x0 x1 x2 6 (i 0) (i 1))
theorem result7 (x0 : FVec Ideal S100000x128 .f32) (x1 : FVec Ideal S9x128x128 .f32) (x2 : FVec Ideal S9x128 .f32) :
    val_main_v20 (F := Ideal) x0 x1 x2 = Cert.Directional.affine 7 x0 x1 x2 :=
  funext fun i => (slab_entry (val_main_v4 (F := Ideal) x0 x1 x2) 7 slices_S9x100000x128_S1x100000x128_7_0_0 i).trans (sum_entry x0 x1 x2 7 (i 0) (i 1))
theorem result8 (x0 : FVec Ideal S100000x128 .f32) (x1 : FVec Ideal S9x128x128 .f32) (x2 : FVec Ideal S9x128 .f32) :
    val_main_v22 (F := Ideal) x0 x1 x2 = Cert.Directional.affine 8 x0 x1 x2 :=
  funext fun i => (slab_entry (val_main_v4 (F := Ideal) x0 x1 x2) 8 slices_S9x100000x128_S1x100000x128_8_0_0 i).trans (sum_entry x0 x1 x2 8 (i 0) (i 1))

end Cert.ReferenceIdeal.RefValue

end
-- ==== Proof.lean ====
/-
  Nine directional linear maps of one matrix: `out_k = X · W[k]ᵀ + B[k]` for k = 0 … 8, with X a [100000, 128]
  matrix, W nine [128, 128] matrices and B nine bias rows.

  The kernel walks the rows of X in 25 blocks of 4000. At each block it keeps all of W and B at hand, multiplies the
  block by each W[k] (contracting the input-channel axis of both, into a zero accumulator), adds the bias row, and
  writes the block of rows of result k. The reference contracts W with X once into a [9, 128, 100000] array, swaps the
  last two axes, adds the broadcast bias, and slices out the nine results.

  On the extended reals both compute, at result k, row n, channel o,
      ∑ j, X[n, j] · W[k, o, j]  +  B[k, o]
  — the kernel with the factors in this order, the reference with them swapped. Multiplication of extended reals
  is commutative, and nothing else is used: no distributivity, no cancellation, so the finiteness of the inputs is
  never called upon. The idealization rewrote nothing, so the kernel's idealized program is its own text read on
  the extended reals.

  Modules: Spec (the map), Body (what one point stores, entry by entry), Reads (a point's blocks as entries of the
  arguments), Stored (the two combined), ResultsA / B / C (each result array after the run), KernelRun (the run),
  RefValue (the reference, entry by entry); here the five claims are assembled.
-/
import proofs.«138845_g40656160424518_cont_8to1_b_389_5_alg».proof.Defs
import proofs.«138845_g40656160424518_cont_8to1_b_389_5_alg».proof.Proof.Gen.Kernel
import proofs.«138845_g40656160424518_cont_8to1_b_389_5_alg».proof.Proof.Gen.Kernel.Skeleton
import proofs.«138845_g40656160424518_cont_8to1_b_389_5_alg».proof.Proof.Gen.Kernel.Launch
import proofs.«138845_g40656160424518_cont_8to1_b_389_5_alg».proof.Proof.Gen.Kernel.Points
import proofs.«138845_g40656160424518_cont_8to1_b_389_5_alg».proof.Proof.Gen.Kernel.Frame
import proofs.«138845_g40656160424518_cont_8to1_b_389_5_alg».proof.Proof.Gen.KernelIdeal
import proofs.«138845_g40656160424518_cont_8to1_b_389_5_alg».proof.Proof.Gen.KernelIdeal.Skeleton
import proofs.«138845_g40656160424518_cont_8to1_b_389_5_alg».proof.Proof.Gen.KernelIdeal.Launch
import proofs.«138845_g40656160424518_cont_8to1_b_389_5_alg».proof.Proof.Gen.KernelIdeal.Points
import proofs.«138845_g40656160424518_cont_8to1_b_389_5_alg».proof.Proof.Gen.KernelIdeal.Frame
import proofs.«138845_g40656160424518_cont_8to1_b_389_5_alg».proof.Proof.Gen.ReferenceIdeal
import proofs.«138845_g40656160424518_cont_8to1_b_389_5_alg».proof.Proof.Gen.Pre_finite_inputs
import proofs.«138845_g40656160424518_cont_8to1_b_389_5_alg».proof.Proof.Gen.KernelIdeal.Value
import proofs.«138845_g40656160424518_cont_8to1_b_389_5_alg».proof.Proof.Gen.ReferenceIdeal.Run
import proofs.«138845_g40656160424518_cont_8to1_b_389_5_alg».proof.Proof.Gen.ReferenceIdeal.Read
import proofs.«138845_g40656160424518_cont_8to1_b_389_5_alg».proof.Proof.KernelRun
import proofs.«138845_g40656160424518_cont_8to1_b_389_5_alg».proof.Proof.RefValue
import Idealize.ShloMosaic.Adequacy
import Idealize.ShloMosaic.Init

noncomputable section

namespace Cert.Proof

open Idealize.ShloMosaic Idealize.SL.Sem

/-- The word-level kernel runs and leaves its arguments as it found them. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as it found them: its run, with the nine results dropped. -/
theorem frame_reference_ideal : Cert.frame_ReferenceIdeal := fun m ρ _ =>
  (θ_run Cert.ReferenceIdeal.defs _ _).mono (fun _ h c => (h c).2.2.2.2.2.2.2.2.2)
    (Cert.ReferenceIdeal.Value.run (F := Ideal) m ρ)

/-- The idealization rewrote no operation, so there is nothing to preserve. -/
theorem preserves : Cert.preserves_Kernel_KernelIdeal := trivial

/-- From memories agreeing on the arguments both programs end with result `k` at direction `k`'s affine map of the
    arguments: the kernel by its run read block by block, the reference by its run read entry by entry. -/
theorem algebraic : Cert.algebraic_KernelIdeal_ReferenceIdeal := by
  intro m ρ m' ρ' _ hagree
  refine ⟨fun c => Cert.KernelIdeal.Stored.target m c 0, fun c => Cert.KernelIdeal.Stored.target m c 1,
    fun c => Cert.KernelIdeal.Stored.target m c 2, fun c => Cert.KernelIdeal.Stored.target m c 3,
    fun c => Cert.KernelIdeal.Stored.target m c 4, fun c => Cert.KernelIdeal.Stored.target m c 5,
    fun c => Cert.KernelIdeal.Stored.target m c 6, fun c => Cert.KernelIdeal.Stored.target m c 7,
    fun c => Cert.KernelIdeal.Stored.target m c 8, Cert.KernelIdeal.KernelRun.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, hkept⟩ := h c
  obtain ⟨e0, e1, e2⟩ := hagree c
  refine ⟨h0.trans ?_, h1.trans ?_, h2.trans ?_, h3.trans ?_, h4.trans ?_, h5.trans ?_, h6.trans ?_, h7.trans ?_, h8.trans ?_, hkept⟩
  · rw [e0, e1, e2]; exact (Cert.ReferenceIdeal.Read.val_main_v6_eq (F := Ideal) _ _ _).trans (Cert.ReferenceIdeal.RefValue.result0 _ _ _)
  · rw [e0, e1, e2]; exact (Cert.ReferenceIdeal.Read.val_main_v8_eq (F := Ideal) _ _ _).trans (Cert.ReferenceIdeal.RefValue.result1 _ _ _)
  · rw [e0, e1, e2]; exact (Cert.ReferenceIdeal.Read.val_main_v10_eq (F := Ideal) _ _ _).trans (Cert.ReferenceIdeal.RefValue.result2 _ _ _)
  · rw [e0, e1, e2]; exact (Cert.ReferenceIdeal.Read.val_main_v12_eq (F := Ideal) _ _ _).trans (Cert.ReferenceIdeal.RefValue.result3 _ _ _)
  · rw [e0, e1, e2]; exact (Cert.ReferenceIdeal.Read.val_main_v14_eq (F := Ideal) _ _ _).trans (Cert.ReferenceIdeal.RefValue.result4 _ _ _)
  · rw [e0, e1, e2]; exact (Cert.ReferenceIdeal.Read.val_main_v16_eq (F := Ideal) _ _ _).trans (Cert.ReferenceIdeal.RefValue.result5 _ _ _)
  · rw [e0, e1, e2]; exact (Cert.ReferenceIdeal.Read.val_main_v18_eq (F := Ideal) _ _ _).trans (Cert.ReferenceIdeal.RefValue.result6 _ _ _)
  · rw [e0, e1, e2]; exact (Cert.ReferenceIdeal.Read.val_main_v20_eq (F := Ideal) _ _ _).trans (Cert.ReferenceIdeal.RefValue.result7 _ _ _)
  · rw [e0, e1, e2]; exact (Cert.ReferenceIdeal.Read.val_main_v22_eq (F := Ideal) _ _ _).trans (Cert.ReferenceIdeal.RefValue.result8 _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
